-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S10000x1 : Shape := ⟨2, ![10000, 1]⟩
abbrev S1x2048 : Shape := ⟨2, ![1, 2048]⟩
abbrev S10000 : Shape := ⟨1, ![10000]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S10000x1 : S_.BroadcastsInDim S10000x1 (![] : Fin 0 → Fin S10000x1.rank)
  reducesTo_S10000x1_S_d0_1 : S10000x1.ReducesTo [0, 1] S_
  bcast_S_S1x2048 : S_.BroadcastsInDim S1x2048 (![] : Fin 0 → Fin S1x2048.rank)
  reducesTo_S1x2048_S_d0_1 : S1x2048.ReducesTo [0, 1] S_
  bcast_S_S10000 : S_.BroadcastsInDim S10000 (![] : Fin 0 → Fin S10000.rank)
  reducesTo_S10000_S_d0 : S10000.ReducesTo [0] S_

variable [Facts]

def fn_part1 {F : FTy → Type} [FloatOps F] (main_v13 : IVec S_ 1) (main_v16 : IVec S10000 1) : IVec S_ 1 :=
  let main_c_5 : IVec S_ 1 := constantI S_ 1 1#1
  let main_v17 : IVec S_ 1 := (fun x v => Host.reduce IntOp.andi x v reducesTo_S10000_S_d0 h_S_) main_v16 main_c_5
  let main_v18 : IVec S_ 1 := andi main_v13 main_v17
  main_v18

def fn {F : FTy → Type} [FloatOps F] (main_arg0 : FVec F S8192x2048 .f32) (main_arg1 : FVec F S10000x1 .f32) (main_arg2 : FVec F S1x2048 .f32) (main_arg3 : FVec F S10000 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S10000x1 .f32 := Host.absf main_arg1
  let main_cst_0 : FVec F S_ .f32 := constant S_ .f32 0x7F800000#32
  let main_v5 : FVec F S10000x1 .f32 := broadcastInDim S10000x1 ![] bcast_S_S10000x1 main_cst_0
  let main_v6 : IVec S10000x1 1 := cmpf .olt main_v4 main_v5
  let main_c_1 : IVec S_ 1 := constantI S_ 1 1#1
  let main_v7 : IVec S_ 1 := (fun x v => Host.reduce IntOp.andi x v reducesTo_S10000x1_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S10000 .f32 := Host.absf main_arg3
  let main_cst_4 : FVec F S_ .f32 := constant S_ .f32 0x7F800000#32
  let main_v15 : FVec F S10000 .f32 := broadcastInDim S10000 ![] bcast_S_S10000 main_cst_4
  let main_v16 : IVec S10000 1 := cmpf .olt main_v14 main_v15
  fn_part1 (F := F) main_v13 main_v16
-- ==== Kernel.lean ====
abbrev S8192x2048 : Shape := ⟨2, ![8192, 2048]⟩
abbrev S10000x1 : Shape := ⟨2, ![10000, 1]⟩
abbrev S1x2048 : Shape := ⟨2, ![1, 2048]⟩
abbrev S10000 : Shape := ⟨1, ![10000]⟩
abbrev S1x10000 : Shape := ⟨2, ![1, 10000]⟩
abbrev S8192x10000 : Shape := ⟨2, ![8192, 10000]⟩
abbrev S256x2048 : Shape := ⟨2, ![256, 2048]⟩
abbrev S256x10000 : Shape := ⟨2, ![256, 10000]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S10000x1, .f32⟩
  | .hbm, ⟨2, _⟩ => ⟨S1x2048, .f32⟩
  | .hbm, ⟨3, _⟩ => ⟨S10000, .f32⟩
  | .hbm, ⟨4, _⟩ => ⟨S10000, .f32⟩
  | .hbm, ⟨5, _⟩ => ⟨S1x10000, .f32⟩
  | .hbm, ⟨6, _⟩ => ⟨S1x10000, .f32⟩
  | .hbm, ⟨7, _⟩ => ⟨S8192x10000, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x10000, .f32⟩
  | .local _ .vmem, ⟨4, _⟩ => ⟨S1x10000, .f32⟩
  | .local _ .vmem, ⟨5, _⟩ => ⟨S256x10000, .f32⟩
  | .local _ .vmem, ⟨6, _⟩ => ⟨S256x10000, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S10000x1_S10000 : S10000x1.ShapeCasts S10000
  shapeCasts_S10000_S1x10000 : S10000.ShapeCasts S1x10000
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  broadcasts_S1x2048_S256x2048 : S1x2048.Broadcasts S256x2048
  reduces_S256x2048_S256 : S256x2048.Reduces [1] S256
  shapeCasts_S256_S256x1 : S256.ShapeCasts S256x1
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S256x1_S256x10000 : S256x1.Broadcasts S256x10000
  broadcasts_S1x10000_S256x10000 : S1x10000.Broadcasts S256x10000
  inb_S256x10000_S256x10000_0_0 : ∀ a, (![0, 0] : Fin 2 → Nat) a + S256x10000.size a ≤ S256x10000.size a
  h_S256x10000 : 0 < S256x10000.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000.size a ≤ S1x10000.size a
  hwx0_2 : ∀ i : grid0.Coords, EltTy.bits .f32 = 32 ∨ (Rect.block (s := S1x10000) S1x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10000.size a ≤ S1x10000.size a
  hwx0_3 : ∀ i : grid0.Coords, EltTy.bits .f32 = 32 ∨ (Rect.block (s := S1x10000) S1x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x10000.size a ≤ S8192x10000.size a
  hwx0_4 : ∀ i : grid0.Coords, EltTy.bits .f32 = 32 ∨ (Rect.block (s := S8192x10000) S256x10000.size (cc0_transform_4 i) (hinb0_4 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x10000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S10000x1 : Shape := ⟨2, ![10000, 1]⟩
abbrev S1x2048 : Shape := ⟨2, ![1, 2048]⟩
abbrev S10000 : Shape := ⟨1, ![10000]⟩
abbrev S2048x1 : Shape := ⟨2, ![2048, 1]⟩
abbrev S8192x1 : Shape := ⟨2, ![8192, 1]⟩
abbrev S1x10000 : Shape := ⟨2, ![1, 10000]⟩
abbrev S8192x10000 : Shape := ⟨2, ![8192, 10000]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S10000x1, .f32⟩
  | .hbm, ⟨2, _⟩ => ⟨S1x2048, .f32⟩
  | .hbm, ⟨3, _⟩ => ⟨S10000, .f32⟩
  | .hbm, ⟨4, _⟩ => ⟨S2048x1, .f32⟩
  | .hbm, ⟨5, _⟩ => ⟨S8192x1, .f32⟩
  | .hbm, ⟨6, _⟩ => ⟨S10000, .f32⟩
  | .hbm, ⟨7, _⟩ => ⟨S1x10000, .f32⟩
  | .hbm, ⟨8, _⟩ => ⟨S8192x10000, .f32⟩
  | .hbm, ⟨9, _⟩ => ⟨S8192x10000, .f32⟩
  | .hbm, ⟨10, _⟩ => ⟨S8192x10000, .f32⟩
  | .hbm, ⟨11, _⟩ => ⟨S1x10000, .f32⟩
  | .hbm, ⟨12, _⟩ => ⟨S8192x10000, .f32⟩
  | .hbm, ⟨13, _⟩ => ⟨S8192x10000, .f32⟩
  | .hbm, ⟨14, _⟩ => ⟨S_, .f32⟩
  | .hbm, ⟨15, _⟩ => ⟨S8192x10000, .f32⟩
  | .hbm, ⟨16, _⟩ => ⟨S8192x10000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S1x2048_S2048x1_1_0 : S1x2048.Transposes [1, 0] S2048x1
  shapeCasts_S10000x1_S10000 : S10000x1.ShapeCasts S10000
  bcast_S10000_S1x10000_1 : S10000.BroadcastsInDim S1x10000 (![1] : Fin 1 → Fin S1x10000.rank)
  bcast_S8192x1_S8192x10000_0_1 : S8192x1.BroadcastsInDim S8192x10000 (![0, 1] : Fin 2 → Fin S8192x10000.rank)
  bcast_S1x10000_S8192x10000_0_1 : S1x10000.BroadcastsInDim S8192x10000 (![0, 1] : Fin 2 → Fin S8192x10000.rank)
  bcast_S_S8192x10000 : S_.BroadcastsInDim S8192x10000 (![] : Fin 0 → Fin S8192x10000.rank)
  dot_S8192x2048_S2048x1_S8192x1_1_0_0_1_n_n_wf : DotDims.WF S8192x2048 S2048x1 S8192x1 [1] [0] [0] [1] [] []

variable [Facts₀]

def dot_S8192x2048_S2048x1_S8192x1_1_0_0_1_n_n : DotDims S8192x2048 S2048x1 S8192x1 where
  lhsContracting := [1]
  rhsContracting := [0]
  lhsNonContracting := [0]
  rhsNonContracting := [1]
  lhsBatch := []
  rhsBatch := []
  wf := dot_S8192x2048_S2048x1_S8192x1_1_0_0_1_n_n_wf

class Facts : Prop extends Facts₀ where

variable [Facts]
-- ==== Proof.RankOne.lean ====
/-
  The function both programs compute, on the extended reals.

  The inputs are a batch `x` of 8192 rows of length 2048, one weight row `b` of length 2048, a column `a` of 10000
  class weights and 10000 biases. A row's SCORE is its inner product with the weight row,
      score r = Σ_k x[r, k] · b[0, k],
  and entry (r, j) of the result is the rectified affine image of that score under class j's weight and bias,
      result[r, j] = max (score r · a[j, 0] + bias[j]) 0.
  The weight matrix of the layer is the rank-one product a · b, which is never formed: the score is shared by all
  10000 classes of a row.

  Nothing here needs the inputs to be finite: the sum is a sum in a commutative monoid, and the product, the sum and
  the maximum are taken in the same order by both programs.
-/
import Idealize.ShloMosaic.PureOps.Ideal
import Idealize.ShloMosaic.Lib.ValueIdx

noncomputable section

namespace Cert.RankOne

open Idealize.ShloMosaic Idealize.ShloMosaic.ValueIdx

/-- The score of batch row `r`: the inner product of row `r` of `x` with the one row of `b`. -/
def score (x : (⟨2, ![8192, 2048]⟩ : Shape).Idx → EReal) (b : (⟨2, ![1, 2048]⟩ : Shape).Idx → EReal) (r : Fin 8192) : EReal :=
  ∑ k : Fin 2048, x (ix2 r k) * b (ix2 (0 : Fin 1) k)

/-- Entry (r, j): the score of row `r` times class `j`'s weight, plus class `j`'s bias, rectified at zero (the zero
    being the value of the all-zero f32 word, kept as the word). -/
def entry (x : (⟨2, ![8192, 2048]⟩ : Shape).Idx → EReal) (a : (⟨2, ![10000, 1]⟩ : Shape).Idx → EReal)
    (b : (⟨2, ![1, 2048]⟩ : Shape).Idx → EReal) (bias : (⟨1, ![10000]⟩ : Shape).Idx → EReal) (r : Fin 8192) (j : Fin 10000) : EReal :=
  max (score x b r * a (ix2 j (0 : Fin 1)) + bias (ix1 j)) (Ideal.ofBits .f32 0x00000000#32)

/-- The whole result array, index by index. -/
def result (x : (⟨2, ![8192, 2048]⟩ : Shape).Idx → EReal) (a : (⟨2, ![10000, 1]⟩ : Shape).Idx → EReal)
    (b : (⟨2, ![1, 2048]⟩ : Shape).Idx → EReal) (bias : (⟨1, ![10000]⟩ : Shape).Idx → EReal) : (⟨2, ![8192, 10000]⟩ : Shape).Idx → EReal :=
  fun i => entry x a b bias (i 0) (i 1)

/-- The result at the index with coordinates (r, j). -/
theorem result_ix2 (x : (⟨2, ![8192, 2048]⟩ : Shape).Idx → EReal) (a : (⟨2, ![10000, 1]⟩ : Shape).Idx → EReal)
    (b : (⟨2, ![1, 2048]⟩ : Shape).Idx → EReal) (bias : (⟨1, ![10000]⟩ : Shape).Idx → EReal) (r : Fin 8192) (j : Fin 10000) :
    result x a b bias (ix2 r j) = entry x a b bias r j := rfl

end Cert.RankOne

end
-- ==== Proof.ReferenceValue.lean ====
/-
  The reference computes `RankOne.result`.

  The reference forms the score of every row as a matrix product of `x` with the transposed weight row — entry (r, 0) of
  that product is Σ_k x[r, k] · bᵀ[k, 0] = Σ_k x[r, k] · b[0, k] —, broadcasts it along the classes, multiplies by the
  class weights laid out as a row, adds the biases laid out as a row, and takes the maximum with zero. Read at the index
  (r, j), every broadcast and reshape only moves an index, and what is left is `RankOne.entry` at (r, j), term for term.
-/
import proofs.«165987_j36747740184729_2_alg».proof.Proof.Gen.ReferenceIdeal.Read
import proofs.«165987_j36747740184729_2_alg».proof.Proof.RankOne

noncomputable section

namespace Cert.ReferenceIdeal.RankOneValue

open Cert.ReferenceIdeal Cert.ReferenceIdeal.Read Idealize.ShloMosaic Idealize.ShloMosaic.ValueIdx

/-- Where the matrix product reads `x` for entry (r, ·) at contraction index `k`: row `r`, column `k`. -/
theorem lhs_index (r : Fin 8192) (j : Fin 10000) (k : Fin 2048) :
    lidx_main_v1 (idx_main_v4 (ix2 r j)) k = ix2 r k :=
  funext fun a => Fin.ext (by match a with | ⟨0, _⟩ => rfl | ⟨1, _⟩ => rfl)

/-- Where it reads the weight row, through the transpose: row 0, column `k`. -/
theorem rhs_index (r : Fin 8192) (j : Fin 10000) (k : Fin 2048) :
    idx_main_v0 (ridx_main_v1 (idx_main_v4 (ix2 r j)) k) = ix2 (0 : Fin 1) k :=
  funext fun a => Fin.ext (by match a with | ⟨0, _⟩ => rfl | ⟨1, _⟩ => rfl)

/-- Where entry (r, j) reads the class weights, through the reshape to a vector and the two broadcasts: row `j`. -/
theorem weight_index (r : Fin 8192) (j : Fin 10000) :
    idx_main_v2 (idx_main_v3 (idx_main_v5 (ix2 r j))) = ix2 j (0 : Fin 1) :=
  funext fun a => Fin.ext (by match a with | ⟨0, _⟩ => exact Nat.div_one _ | ⟨1, _⟩ => rfl)

/-- Where entry (r, j) reads the biases, through the two broadcasts: position `j`. -/
theorem bias_index (r : Fin 8192) (j : Fin 10000) :
    idx_main_v7 (idx_main_v8 (ix2 r j)) = ix1 j :=
  funext fun a => Fin.ext (by match a with | ⟨0, _⟩ => rfl)

/-- The reference's result, as a function of its four arguments, is `RankOne.result` of them. -/
theorem reference_eq (x0 : (⟨S8192x2048, .f32⟩ : BufTy).Contents (Elt Ideal)) (x1 : (⟨S10000x1, .f32⟩ : BufTy).Contents (Elt Ideal))
    (x2 : (⟨S1x2048, .f32⟩ : BufTy).Contents (Elt Ideal)) (x3 : (⟨S10000, .f32⟩ : BufTy).Contents (Elt Ideal)) :
    val_main_v10 (F := Ideal) x0 x1 x2 x3 = Cert.RankOne.result x0 x1 x2 x3 := by
  funext i
  obtain ⟨r, j, rfl⟩ : ∃ (r : Fin 8192) (j : Fin 10000), i = ix2 r j := ⟨i 0, i 1, eq_ix2 i⟩
  rw [Cert.RankOne.result_ix2, val_main_v10_apply, val_main_v9_apply, val_main_v6_apply, val_main_v4_apply, val_main_v1_apply,
    val_main_v5_apply, val_main_v3_apply, val_main_v2_apply, val_main_v8_apply, val_main_v7_apply, val_main_call0_v0_apply,
    val_main_call0_cst_apply]
  simp only [val_main_v0_apply, lhs_index, rhs_index, weight_index, bias_index, Ideal.maximumf_def, Ideal.addf_def,
    Ideal.mulf_def, Ideal.ofBits_def]
  rfl

end Cert.ReferenceIdeal.RankOneValue

end
-- ==== Proof.KernelBlock.lean ====
/-
  What the kernel's body leaves in its output block, entry by entry, as a function of the four input blocks.

  At a grid point the body holds a block `xb` of 256 rows of `x`, the whole weight row `bb`, and the class weights `ab`
  and biases `cb` each laid out as one row of length 10000. It multiplies every row of `xb` by the weight row entry by
  entry and sums along the row — the row's score, a lane sum whose neutral start value is the zero word —, then for
  every class multiplies the score by the class weight, adds the bias, and takes the maximum with zero. So entry (p, j)
  of the block it stores is
      max ((Σ_k xb[p, k] · bb[0, k]) · ab[0, j] + cb[0, j]) 0.
-/
import proofs.«165987_j36747740184729_2_alg».proof.Proof.Gen.KernelIdeal.Value
import Idealize.ShloMosaic.PureOps.Ideal.Laws
import Idealize.ShloMosaic.Lib.ValueIdx
import Idealize.ShloMosaic.Lib.Pipeline.Value

noncomputable section

namespace Cert.KernelIdeal.RankOneValue

open Cert.KernelIdeal Cert.KernelIdeal.Gen Idealize.ShloMosaic Idealize.ShloMosaic.ValueIdx

/-- The offset of every whole-buffer access of the body is the origin. -/
theorem origin : (![0, 0] : Fin 2 → Nat) = fun _ => 0 := funext fun a => by fin_cases a <;> rfl

/-- The lane sum of row `p` of the entrywise product of the block with the broadcast weight row is the inner product
    of that row with the weight row. -/
theorem lane_sum (xb : FVec Ideal S256x2048 .f32) (bb : FVec Ideal S1x2048 .f32) (p : Fin 256) :
    (multiReduction (F := Ideal) .add [1] S256 (mulf xb (broadcastTo S256x2048 bb broadcasts_S1x2048_S256x2048)) 0x00000000#32
        reduces_S256x2048_S256 (.inl rfl) rfl) (ix1 p)
      = ∑ k : Fin 2048, xb (ix2 p k) * bb (ix2 (0 : Fin 1) k) := by
  refine (Ideal.multiReduction_add_single (mulf xb (broadcastTo S256x2048 bb broadcasts_S1x2048_S256x2048)) 0x00000000#32
    reduces_S256x2048_S256 (.inl rfl) rfl (ix1 p)).trans ?_
  refine Finset.sum_congr rfl fun k _ => ?_
  have hl : reduces_S256x2048_S256.lift (ix1 p) k = ix2 p k :=
    funext fun a => Fin.ext (by match a with | ⟨0, _⟩ => rfl | ⟨1, _⟩ => rfl)
  rw [hl]
  show xb (ix2 p k) * broadcastTo S256x2048 bb broadcasts_S1x2048_S256x2048 (ix2 p k) = _
  rw [broadcastTo_apply bb broadcasts_S1x2048_S256x2048 (ix2 p k) (ix2 (0 : Fin 1) k) (fun a => match a with
    | ⟨0, _⟩ => by show 0 = if (1 : Nat) = 1 then 0 else p.val; rw [if_pos rfl]
    | ⟨1, _⟩ => by show k.val = if (2048 : Nat) = 1 then 0 else k.val; rw [if_neg (by decide)])]

/-- Entry (p, j) of the block the body stores, for arbitrary input blocks. -/
theorem stored_apply (xb : FVec Ideal S256x2048 .f32) (bb : FVec Ideal S1x2048 .f32) (ab : FVec Ideal S1x10000 .f32)
    (cb : FVec Ideal S1x10000 .f32) (p : Fin 256) (j : Fin 10000) :
    out0_4 (F := Ideal) xb bb ab cb (ix2 p j)
      = max ((∑ k : Fin 2048, xb (ix2 p k) * bb (ix2 (0 : Fin 1) k)) * ab (ix2 (0 : Fin 1) j) + cb (ix2 (0 : Fin 1) j))
          (Ideal.ofBits .f32 0x00000000#32) := by
  unfold out0_4
  simp only [View.ld_unit_zero (S := S256x2048) origin, View.ld_unit_zero (S := S1x2048) origin,
    View.ld_unit_zero (S := S1x10000) origin]
  refine (Cert.KernelIdeal.Value.canon4_eq (F := Ideal) xb bb ab cb (ix2 p j)).trans ?_
  have h0 : Cert.KernelIdeal.Value.ix4_0 (ix2 p j) = ix1 p :=
    funext fun a => Fin.ext (by match a with | ⟨0, _⟩ => rfl)
  have h1 : Cert.KernelIdeal.Value.ix4_1 (ix2 p j) = ix2 (0 : Fin 1) j :=
    funext fun a => Fin.ext (by match a with | ⟨0, _⟩ => rfl | ⟨1, _⟩ => rfl)
  have h2 : Cert.KernelIdeal.Value.ix4_2 (ix2 p j) = ix2 (0 : Fin 1) j :=
    funext fun a => Fin.ext (by match a with | ⟨0, _⟩ => rfl | ⟨1, _⟩ => rfl)
  show max ((multiReduction (F := Ideal) .add [1] S256 (mulf xb (broadcastTo S256x2048 bb broadcasts_S1x2048_S256x2048)) 0x00000000#32
      reduces_S256x2048_S256 (.inl rfl) rfl) (Cert.KernelIdeal.Value.ix4_0 (ix2 p j)) * ab (Cert.KernelIdeal.Value.ix4_1 (ix2 p j))
      + cb (Cert.KernelIdeal.Value.ix4_2 (ix2 p j))) (Ideal.ofBits .f32 0x00000000#32) = _
  rw [h0, h1, h2, lane_sum xb bb p]

end Cert.KernelIdeal.RankOneValue

end
-- ==== Proof.KernelArray.lean ====
/-
  From the kernel's blocks to its result array.

  The grid has 32 points. Point `t` is handed rows 256·t … 256·t + 255 of `x`, the whole weight row, and the class
  weights and biases as rows of length 10000 — the latter two written by the host before the launch as reshapes of the
  column `a` and of the bias vector, which only relabel indices: position (0, j) of the class-weight row is a[j, 0],
  position (0, j) of the bias row is bias[j]. The point writes back rows 256·t … 256·t + 255 of the result.

  So what point `t` writes at (p, j) of its block is `RankOne.entry` at (256·t + p, j) of the four argument arrays: the
  block is the restriction of `RankOne.result` to those rows. Row r lies in the block of point r / 256, the 32 blocks
  cover the array, and the array after the run is `RankOne.result` of the arguments.
-/
import proofs.«165987_j36747740184729_2_alg».proof.Proof.Gen.KernelIdeal.Value
import proofs.«165987_j36747740184729_2_alg».proof.Proof.RankOne
import proofs.«165987_j36747740184729_2_alg».proof.Proof.KernelBlock
import Idealize.ShloMosaic.Lib.Pipeline.Value
import Idealize.ShloMosaic.Lib.StableHlo.Run
import Idealize.ShloMosaic.Lib.ValueIdx

noncomputable section

namespace Cert.KernelIdeal.RankOneValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The two rows the host lays out before the launch -/

/-- The class-weight row the region finds is the column `a` reshaped to a vector and then to a row. -/
theorem weights_row (c : Dev nD) : (V m c main_v1 : S1x10000.Idx → EReal)
    = shapeCast S1x10000 (shapeCast S10000 (m ((c : Thread nD τ).loc main_arg1)) shapeCasts_S10000x1_S10000) shapeCasts_S10000_S1x10000 := by
  dsimp only [Gen.V, Gen.hostOps0]; after_results; rfl

/-- The bias row the region finds is the bias vector reshaped to a row. -/
theorem bias_row (c : Dev nD) : (V m c main_v2 : S1x10000.Idx → EReal)
    = shapeCast S1x10000 (m ((c : Thread nD τ).loc main_arg3)) shapeCasts_S10000_S1x10000 := by
  dsimp only [Gen.V, Gen.hostOps0]; after_results; rfl

/-- Position (0, j) of the class-weight row is a[j, 0]: both reshapes keep the row-major position j. -/
theorem weights_row_apply (c : Dev nD) (j : Fin 10000) :
    (V m c main_v1 : S1x10000.Idx → EReal) (ix2 (0 : Fin 1) j)
      = (m ((c : Thread nD τ).loc main_arg1) : S10000x1.Idx → EReal) (ix2 j (0 : Fin 1)) := by
  rw [weights_row m c]
  refine (shapeCast_apply _ shapeCasts_S10000_S1x10000 (ix2 (0 : Fin 1) j) (ix1 j) (by
    rw [Shape.rowMajor_val_one, Shape.rowMajor_val_two]; show j.val = 0 * 10000 + j.val; omega)).trans ?_
  exact shapeCast_apply _ shapeCasts_S10000x1_S10000 (ix1 j) (ix2 j (0 : Fin 1)) (by
    rw [Shape.rowMajor_val_two, Shape.rowMajor_val_one]; show j.val * 1 + 0 = j.val; omega)

/-- Position (0, j) of the bias row is bias[j]. -/
theorem bias_row_apply (c : Dev nD) (j : Fin 10000) :
    (V m c main_v2 : S1x10000.Idx → EReal) (ix2 (0 : Fin 1) j)
      = (m ((c : Thread nD τ).loc main_arg3) : S10000.Idx → EReal) (ix1 j) := by
  rw [bias_row m c]
  exact shapeCast_apply _ shapeCasts_S10000_S1x10000 (ix2 (0 : Fin 1) j) (ix1 j) (by
    rw [Shape.rowMajor_val_one, Shape.rowMajor_val_two]; show j.val = 0 * 10000 + j.val; omega)

/-! ## Which block each window hands a point -/

/-- The block indices over the grid: the batch block and the result block move with the point along the rows, the
    three resident rows stay at the origin. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The batch block at point `t` is rows 256·t … 256·t + 255 of `x`. -/
theorem batch_block (c : Dev nD) (t : Fin cfg0.N) (y : S256x2048.Idx) (i : S8192x2048.Idx)
    (h0 : (i 0).val = 256 * t.val + (y 0).val) (h1 : (i 1).val = (y 1).val) :
    (iblk m c 0 t : Vec Ideal S256x2048 .f32) y = (m ((c : Thread nD τ).loc main_arg0) : S8192x2048.Idx → EReal) i := by
  obtain ⟨e0, e1, -⟩ := block_indices t
  unfold iblk
  rw [View.read_apply]
  show V m c main_arg0 _ = m ((c : Thread nD τ).loc main_arg0) _
  rw [V_main_arg0 m c]
  congr 1
  funext a
  apply Fin.ext
  match a with
  | ⟨0, _⟩ => show win0_0.index t (0 : Fin 2) * 256 + 1 * (y 0).val = (i 0).val; rw [e0, h0]; omega
  | ⟨1, _⟩ => show win0_0.index t (1 : Fin 2) * 2048 + 1 * (y 1).val = (i 1).val; rw [e1, h1]; omega

/-- The weight-row block at every point is the whole weight row. -/
theorem weight_block (c : Dev nD) (t : Fin cfg0.N) (y : S1x2048.Idx) :
    (iblk m c 1 t : Vec Ideal S1x2048 .f32) y = (m ((c : Thread nD τ).loc main_arg2) : S1x2048.Idx → EReal) y := by
  obtain ⟨-, -, e0, e1, -⟩ := block_indices t
  unfold iblk
  rw [View.read_apply]
  show V m c main_arg2 _ = m ((c : Thread nD τ).loc main_arg2) _
  rw [V_main_arg2 m c]
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 2048 + 1 * (y 1).val = (y 1).val; rw [e1]; omega

/-- The class-weight block at every point, at (0, j), is a[j, 0]. -/
theorem classes_block (c : Dev nD) (t : Fin cfg0.N) (j : Fin 10000) :
    (iblk m c 2 t : Vec Ideal S1x10000 .f32) (ix2 (0 : Fin 1) j)
      = (m ((c : Thread nD τ).loc main_arg1) : S10000x1.Idx → EReal) (ix2 j (0 : Fin 1)) := by
  obtain ⟨-, -, -, -, e0, e1, -⟩ := block_indices t
  refine Eq.trans ?_ (weights_row_apply m c j)
  unfold iblk
  rw [View.read_apply]
  show V m c main_v1 _ = V m c main_v1 _
  congr 1
  funext a
  apply Fin.ext
  match a with
  | ⟨0, _⟩ => show win0_2.index t (0 : Fin 2) * 1 + 1 * 0 = 0; rw [e0]
  | ⟨1, _⟩ => show win0_2.index t (1 : Fin 2) * 10000 + 1 * j.val = j.val; rw [e1]; omega

/-- The bias block at every point, at (0, j), is bias[j]. -/
theorem biases_block (c : Dev nD) (t : Fin cfg0.N) (j : Fin 10000) :
    (iblk m c 3 t : Vec Ideal S1x10000 .f32) (ix2 (0 : Fin 1) j)
      = (m ((c : Thread nD τ).loc main_arg3) : S10000.Idx → EReal) (ix1 j) := by
  obtain ⟨-, -, -, -, -, -, e0, e1, -⟩ := block_indices t
  refine Eq.trans ?_ (bias_row_apply m c j)
  unfold iblk
  rw [View.read_apply]
  show V m c main_v2 _ = V m c main_v2 _
  congr 1
  funext a
  apply Fin.ext
  match a with
  | ⟨0, _⟩ => show win0_3.index t (0 : Fin 2) * 1 + 1 * 0 = 0; rw [e0]
  | ⟨1, _⟩ => show win0_3.index t (1 : Fin 2) * 10000 + 1 * j.val = j.val; rw [e1]; omega

/-! ## What a point writes back -/

/-- The result of the four argument arrays on core `c`. -/
abbrev expected (c : Dev nD) : S8192x10000.Idx → EReal :=
  Cert.RankOne.result (m ((c : Thread nD τ).loc main_arg0)) (m ((c : Thread nD τ).loc main_arg1))
    (m ((c : Thread nD τ).loc main_arg2)) (m ((c : Thread nD τ).loc main_arg3))

/-- Entry (p, j) of the block point `t` stores is the result's entry (256·t + p, j). -/
theorem point_apply (c : Dev nD) (t : Fin cfg0.N) (p : Fin 256) (j : Fin 10000) (hr : 256 * t.val + p.val < 8192) :
    out0_4 (F := Ideal) (iblk m c 0 t) (iblk m c 1 t) (iblk m c 2 t) (iblk m c 3 t) (ix2 p j)
      = expected m c (ix2 ⟨256 * t.val + p.val, hr⟩ j) := by
  refine (stored_apply (iblk m c 0 t) (iblk m c 1 t) (iblk m c 2 t) (iblk m c 3 t) p j).trans ?_
  refine Eq.trans ?_ (Cert.RankOne.result_ix2 (m ((c : Thread nD τ).loc main_arg0)) (m ((c : Thread nD τ).loc main_arg1))
    (m ((c : Thread nD τ).loc main_arg2)) (m ((c : Thread nD τ).loc main_arg3)) ⟨256 * t.val + p.val, hr⟩ j).symm
  unfold Cert.RankOne.entry Cert.RankOne.score
  rw [classes_block m c t j, biases_block m c t j]
  congr 3
  refine Finset.sum_congr rfl fun k _ => ?_
  rw [batch_block m c t (ix2 p k) (ix2 (⟨256 * t.val + p.val, hr⟩ : Fin 8192) k) rfl rfl, weight_block m c t (ix2 (0 : Fin 1) k)]

/-- What point `t` writes back is block `t` of the result of the argument arrays. -/
theorem flushed_eq (c : Dev nD) (t : Fin cfg0.N) :
    (dats m 0 c).flushed 4 t = ((cfg0.win 4).blk t).view.read (Elt Ideal) (expected m c) := by
  rw [Cert.KernelIdeal.Value.flushed4]
  have ht : t.val < 32 := lt_of_lt_of_eq t.isLt (show cfg0.N = 32 from N_0)
  obtain ⟨-, -, -, -, -, -, -, -, e0, e1⟩ := block_indices t
  refine funext fun (y : S256x10000.Idx) => ?_
  obtain ⟨p, j, rfl⟩ : ∃ (p : Fin 256) (j : Fin 10000), y = ix2 p j := ⟨y 0, y 1, eq_ix2 y⟩
  have hr : 256 * t.val + p.val < 8192 := by have := p.isLt; omega
  show out0_4 (F := Ideal) (iblk m c 0 t) (iblk m c 1 t) (iblk m c 2 t) (iblk m c 3 t) (ix2 p j)
    = expected m c (((cfg0.win 4).blk t).view.emb (ix2 p j))
  rw [point_apply m c t p j hr]
  congr 1
  funext a
  apply Fin.ext
  match a with
  | ⟨0, _⟩ => show 256 * t.val + p.val = win0_4.index t (0 : Fin 2) * 256 + 1 * p.val; rw [e0]; omega
  | ⟨1, _⟩ => show j.val = win0_4.index t (1 : Fin 2) * 10000 + 1 * j.val; rw [e1]; omega

/-! ## The blocks cover the array -/

/-- An index of the array lies in point `t`'s block iff each coordinate lies in the block's range on its axis. -/
theorem mem_block (t : Fin cfg0.N) (i : S8192x10000.Idx) :
    i ∈ ((cfg0.win 4).blk t).view.set ↔ ∀ a : Fin 2, win0_4.index t a * S256x10000.size a ≤ (i a).val
      ∧ (i a).val < win0_4.index t a * S256x10000.size a + S256x10000.size a := by
  show i ∈ ((View.whole main_v3).slice (win0_4.rect t)).set ↔ _
  rw [View.set_slice_whole, Rect.mem_set_unit]
  exact Iff.rfl

/-- Row r lies in the block of point r / 256. -/
theorem covered (i : S8192x10000.Idx) :
    ∃ t : Fin cfg0.N, (cfg0.win 4).flush t = true ∧ i ∈ ((cfg0.win 4).blk t).view.set := by
  have hi0 : (i 0).val < 8192 := (i 0).isLt
  have hi1 : (i 1).val < 10000 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, -, -, -, -, e0, e1⟩ := block_indices t
  refine ⟨t, flush0_4 t, ?_⟩
  rw [mem_block]
  intro a
  match a with
  | ⟨0, _⟩ => show win0_4.index t (0 : Fin 2) * 256 ≤ (i 0).val ∧ (i 0).val < win0_4.index t (0 : Fin 2) * 256 + 256; rw [e0, ht]; omega
  | ⟨1, _⟩ => show win0_4.index t (1 : Fin 2) * 10000 ≤ (i 1).val ∧ (i 1).val < win0_4.index t (1 : Fin 2) * 10000 + 10000; rw [e1]; omega

/-! ## The array after the run, and the run -/

/-- After the run the result array is `RankOne.result` of the argument arrays. -/
theorem final (c : Dev nD) : (dats m 0 c).arrAt 4 cfg0.N = expected m c :=
  (dats m 0 c).arrAt_eq_of_cover 4 (expected m c) (fun t _ => flushed_eq m c t) covered

/-- Every weakly fair execution of the kernel terminates with the result array at `RankOne.result` of the arguments
    and the arguments unchanged. -/
theorem run : θ_run defs (onTc (τ := τ) (main (F := Ideal))) ⟨m, fun _ => 0, ρ⟩ fun r => ∀ c : Dev nD,
      r.2.mem ((c : Thread nD τ).loc main_v3) = expected m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.RankOneValue

end
-- ==== Proof.lean ====
/- The proof of `Cert.Claim` (proofs.«165987_j36747740184729_2_alg».proof.Defs).

   The kernel is a rank-one linear layer followed by a rectifier. For a batch `x` (8192 × 2048), a weight row `b`
   (1 × 2048), a column `a` of 10000 class weights and 10000 biases, both programs compute
       result[r, j] = max ((Σ_k x[r, k] · b[0, k]) · a[j, 0] + bias[j]) 0
   (Proof/RankOne.lean). The reference takes the row scores Σ_k x[r, k] · b[0, k] as a matrix product with the transposed
   weight row and broadcasts (Proof/ReferenceValue.lean); the kernel walks the batch in 32 blocks of 256 rows, takes each
   row's score as a lane sum of an entrywise product (Proof/KernelBlock.lean), and writes the matching 256 rows of the
   result, the 32 blocks covering it (Proof/KernelArray.lean). On the extended reals a lane sum from the zero word and a
   matrix product's contraction are the same finite sum, and the remaining product, sum and maximum are taken in the same
   order on both sides, so the two results agree at every index whatever the inputs: the finiteness of the inputs is
   not used. The idealization rewrote nothing, so there is nothing to preserve; the three frames are the generated
   frame runs of the two kernel programs and the reference's generated run with its result dropped. -/
import proofs.«165987_j36747740184729_2_alg».proof.Defs
import proofs.«165987_j36747740184729_2_alg».proof.Proof.Gen.Kernel
import proofs.«165987_j36747740184729_2_alg».proof.Proof.Gen.Kernel.Frame
import proofs.«165987_j36747740184729_2_alg».proof.Proof.Gen.KernelIdeal
import proofs.«165987_j36747740184729_2_alg».proof.Proof.Gen.KernelIdeal.Frame
import proofs.«165987_j36747740184729_2_alg».proof.Proof.Gen.KernelIdeal.Value
import proofs.«165987_j36747740184729_2_alg».proof.Proof.Gen.ReferenceIdeal
import proofs.«165987_j36747740184729_2_alg».proof.Proof.Gen.ReferenceIdeal.Run
import proofs.«165987_j36747740184729_2_alg».proof.Proof.Gen.ReferenceIdeal.Read
import proofs.«165987_j36747740184729_2_alg».proof.Proof.Gen.Pre_finite_inputs
import proofs.«165987_j36747740184729_2_alg».proof.Proof.RankOne
import proofs.«165987_j36747740184729_2_alg».proof.Proof.ReferenceValue
import proofs.«165987_j36747740184729_2_alg».proof.Proof.KernelBlock
import proofs.«165987_j36747740184729_2_alg».proof.Proof.KernelArray
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, the kernel's result array and the reference's both end at
    `RankOne.result` of those arguments. -/
theorem algebraic : Cert.algebraic_KernelIdeal_ReferenceIdeal := by
  intro m ρ m' ρ' _ hagree
  refine ⟨fun c => Cert.KernelIdeal.RankOneValue.expected m c, Cert.KernelIdeal.RankOneValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RankOneValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
